-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x512 : Shape := ⟨2, ![128, 512]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x512 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x512 : Shape := ⟨2, ![128, 512]⟩
abbrev S128 : Shape := ⟨1, ![128]⟩
abbrev S200x10000 : Shape := ⟨2, ![200, 10000]⟩
abbrev S200x128 : Shape := ⟨2, ![200, 128]⟩
abbrev S400x10000 : Shape := ⟨2, ![400, 10000]⟩
abbrev S400x128 : Shape := ⟨2, ![400, 128]⟩
abbrev S512x128 : Shape := ⟨2, ![512, 128]⟩
abbrev S1x128 : Shape := ⟨2, ![1, 128]⟩
abbrev S2000x128 : Shape := ⟨2, ![2000, 128]⟩
abbrev S128x128 : Shape := ⟨2, ![128, 128]⟩

abbrev nBuf : Space → Nat
  | .hbm => 13
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x512, .f32⟩
  | .hbm, ⟨3, _⟩ => ⟨S128, .f32⟩
  | .hbm, ⟨4, _⟩ => ⟨S10000x128, .bf16⟩
  | .hbm, ⟨5, _⟩ => ⟨S10000x128, .bf16⟩
  | .hbm, ⟨6, _⟩ => ⟨S10000x10000, .bf16⟩
  | .hbm, ⟨7, _⟩ => ⟨S10000x128, .bf16⟩
  | .hbm, ⟨8, _⟩ => ⟨S10000x128, .bf16⟩
  | .hbm, ⟨9, _⟩ => ⟨S512x128, .f32⟩
  | .hbm, ⟨10, _⟩ => ⟨S512x128, .bf16⟩
  | .hbm, ⟨11, _⟩ => ⟨S1x128, .f32⟩
  | .hbm, ⟨12, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .bf16⟩
  | .local _ .vmem, ⟨3, _⟩ => ⟨S200x128, .bf16⟩
  | .local _ .vmem, ⟨4, _⟩ => ⟨S200x128, .bf16⟩
  | .local _ .vmem, ⟨5, _⟩ => ⟨S200x10000, .bf16⟩
  | .local _ .vmem, ⟨6, _⟩ => ⟨S200x10000, .bf16⟩
  | .local _ .vmem, ⟨7, _⟩ => ⟨S400x10000, .bf16⟩
  | .local _ .vmem, ⟨8, _⟩ => ⟨S400x10000, .bf16⟩
  | .local _ .vmem, ⟨9, _⟩ => ⟨S10000x128, .bf16⟩
  | .local _ .vmem, ⟨10, _⟩ => ⟨S400x128, .bf16⟩
  | .local _ .vmem, ⟨11, _⟩ => ⟨S400x128, .bf16⟩
  | .local _ .vmem, ⟨12, _⟩ => ⟨S400x10000, .bf16⟩
  | .local _ .vmem, ⟨13, _⟩ => ⟨S400x10000, .bf16⟩
  | .local _ .vmem, ⟨14, _⟩ => ⟨S10000x128, .bf16⟩
  | .local _ .vmem, ⟨15, _⟩ => ⟨S400x128, .bf16⟩
  | .local _ .vmem, ⟨16, _⟩ => ⟨S400x128, .bf16⟩
  | .local _ .vmem, ⟨17, _⟩ => ⟨S2000x128, .f32⟩
  | .local _ .vmem, ⟨18, _⟩ => ⟨S2000x128, .f32⟩
  | .local _ .vmem, ⟨19, _⟩ => ⟨S2000x128, .bf16⟩
  | .local _ .vmem, ⟨20, _⟩ => ⟨S2000x128, .bf16⟩
  | .local _ .vmem, ⟨21, _⟩ => ⟨S2000x128, .bf16⟩
  | .local _ .vmem, ⟨22, _⟩ => ⟨S2000x128, .bf16⟩
  | .local _ .vmem, ⟨23, _⟩ => ⟨S2000x128, .bf16⟩
  | .local _ .vmem, ⟨24, _⟩ => ⟨S2000x128, .bf16⟩
  | .local _ .vmem, ⟨25, _⟩ => ⟨S512x128, .f32⟩
  | .local _ .vmem, ⟨26, _⟩ => ⟨S512x128, .bf16⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem5_0 : DmaSem sig := 26
abbrev cc3_sem6_0 : DmaSem sig := 27
abbrev cc3_sem7_0 : DmaSem sig := 28
abbrev cc3_sem7_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S512x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S200x128_S200x128_0_0 : ∀ a, (![0, 0] : Fin 2 → Nat) a + S200x128.size a ≤ S200x128.size a
  h_S200x128 : 0 < S200x128.numel
  packedbf16_S200x128_S200x128_0_0 : (Rect.unit (s := S200x128) ![0, 0] S200x128.size inb_S200x128_S200x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  transposes_S128x512_S512x128_1_0 : S128x512.Transposes [1, 0] S512x128
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  inb_S512x128_S128x128_0_0 : ∀ a, (![0, 0] : Fin 2 → Nat) a + S128x128.size a ≤ S512x128.size a
  h_S128x128 : 0 < S128x128.numel
  shapeCasts_S128x128_S128x128 : S128x128.ShapeCasts S128x128
  shapeCasts_S2000x128_S2000x128 : S2000x128.ShapeCasts S2000x128
  slices_S512x128_o128_0_S128x128 : S512x128.Slices ![128, 0] S128x128
  slices_S512x128_o256_0_S128x128 : S512x128.Slices ![256, 0] S128x128
  slices_S512x128_o384_0_S128x128 : S512x128.Slices ![384, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S200x10000_S10000x128_S200x128_1_0_0_1_n_n_wf : DotDims.WF S200x10000 S10000x128 S200x128 [1] [0] [0] [1] [] []
  dot_S400x10000_S10000x128_S400x128_1_0_0_1_n_n_wf : DotDims.WF S400x10000 S10000x128 S400x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x128.size a ≤ S10000x128.size a
  hwx0_2 : ∀ i : grid0.Coords, EltTy.bits .bf16 = 32 ∨ (Rect.block (s := S10000x128) S200x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .bf16 = 32 ∨ (Rect.block (s := S10000x10000) S200x10000.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .bf16 = 32 ∨ (Rect.block (s := S10000x128) S400x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .bf16 = 32 ∨ (Rect.block (s := S10000x128) S400x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S10000x128.size a
  hwx3_0 : ∀ i : grid3.Coords, EltTy.bits .f32 = 32 ∨ (Rect.block (s := S10000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S10000x128.size a
  hwx3_1 : ∀ i : grid3.Coords, EltTy.bits .bf16 = 32 ∨ (Rect.block (s := S10000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S10000x128.size a
  hwx3_2 : ∀ i : grid3.Coords, EltTy.bits .bf16 = 32 ∨ (Rect.block (s := S10000x128) S2000x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S10000x128.size a
  hwx3_3 : ∀ i : grid3.Coords, EltTy.bits .bf16 = 32 ∨ (Rect.block (s := S10000x128) S2000x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x128.size a ≤ S512x128.size a
  hwx3_4 : ∀ i : grid3.Coords, EltTy.bits .f32 = 32 ∨ (Rect.block (s := S512x128) S512x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x128.size a ≤ S512x128.size a
  hwx3_5 : ∀ i : grid3.Coords, EltTy.bits .bf16 = 32 ∨ (Rect.block (s := S512x128) S512x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S10000x128.size a
  hwx3_7 : ∀ i : grid3.Coords, EltTy.bits .f32 = 32 ∨ (Rect.block (s := S10000x128) S2000x128.size (cc3_transform_7 i) (hinb3_7 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S200x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S200x10000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1_1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v4) S512x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5) S512x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v6) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v7) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x512 : Shape := ⟨2, ![128, 512]⟩
abbrev S128 : Shape := ⟨1, ![128]⟩
abbrev S10000x512 : Shape := ⟨2, ![10000, 512]⟩
abbrev S512x128 : Shape := ⟨2, ![512, 128]⟩
abbrev S1x128 : Shape := ⟨2, ![1, 128]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x512, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S10000x512, .f32⟩
  | .hbm, ⟨8, _⟩ => ⟨S512x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  concatenates_S10000x128_S10000x128_S10000x128_S10000x128_S10000x512_d1 : Shape.Concatenates [S10000x128, S10000x128, S10000x128, S10000x128] S10000x512 1
  transposes_S128x512_S512x128_1_0 : S128x512.Transposes [1, 0] S512x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x512_S512x128_S10000x128_1_0_0_1_n_n_wf : DotDims.WF S10000x512 S512x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf

class Facts : Prop extends Facts₀ where

variable [Facts]
-- ==== Proof.KernelRunAll.lean ====
/-
  The idealized kernel program's run with every buffer that outlives a region named.

  The program is a host stretch, three propagation regions, a second host stretch and the linear region.  Folding the
  segments over the launch memory gives each boundary's buffer contents (`Gen.W1` … `Gen.W6`); every weakly fair
  execution terminates without a fault, and the final memory holds the last fold `Gen.W6` at every buffer that is
  not scoped to a region: the arguments, the intermediate arrays and the result.
-/
import proofs.«114706_g12524124635992_retrytranche1_277_3_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    the final memory holds the last boundary's contents at every buffer not scoped to a region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Whole

end
-- ==== Proof.PowerConvSpec.lean ====
/-
  The function both programs compute, over the extended reals.

  With node features X : [10000, 128], a dense adjacency A : [10000, 10000], a weight W : [128, 512] and a bias
  b : [128], put Z₀ = X and Z_{k+1} = A · Z_k (`step`).  The result at (r, o) is

      ∑_{c < 512} H(r, c) · W(o, c) + b(o),      H = [Z₀ | Z₁ | Z₂ | Z₃]  (four bands of 128 columns).

  One side sums over all 512 columns at once (`linWhole`); the other sums each band of 128 columns by itself and adds
  the four partial sums from left to right (`linBands`).  Addition of extended reals is commutative and
  associative, so a sum over 512 columns is the sum of its four bands (`sum_bands`): no finiteness is needed.
-/
import Idealize.ShloMosaic.PureOps.Ideal
import Idealize.ShloMosaic.Lib.ValueIdx

noncomputable section

namespace Cert.Spec

open Idealize.ShloMosaic Idealize.ShloMosaic.ValueIdx

abbrev Nodes : Shape := ⟨2, ![10000, 128]⟩
abbrev Adj : Shape := ⟨2, ![10000, 10000]⟩
abbrev Cat : Shape := ⟨2, ![10000, 512]⟩
abbrev Weight : Shape := ⟨2, ![128, 512]⟩
abbrev Bias : Shape := ⟨1, ![128]⟩

/-- One propagation step: entry (r, c) of A · Z is the sum over k of A(r, k) · Z(k, c). -/
def step (A : Adj.Idx → EReal) (Z : Nodes.Idx → EReal) : Nodes.Idx → EReal :=
  fun i => ∑ k : Fin 10000, A (ix2 (i 0) k) * Z (ix2 k (i 1))

/-- Column `k` of band `b` among the 512 concatenated feature columns. -/
def band (b : Fin 4) (k : Fin 128) : Fin 512 := ⟨128 * b.val + k.val, by have := b.isLt; have := k.isLt; omega⟩

/-- The linear layer, band by band: four sums of 128 products added from left to right, then the bias. -/
def linBands (X Z1 Z2 Z3 : Nodes.Idx → EReal) (W : Weight.Idx → EReal) (b : Bias.Idx → EReal) : Nodes.Idx → EReal :=
  fun i => ((((∑ k : Fin 128, X (ix2 (i 0) k) * W (ix2 (i 1) (band 0 k)))
      + ∑ k : Fin 128, Z1 (ix2 (i 0) k) * W (ix2 (i 1) (band 1 k)))
      + ∑ k : Fin 128, Z2 (ix2 (i 0) k) * W (ix2 (i 1) (band 2 k)))
      + ∑ k : Fin 128, Z3 (ix2 (i 0) k) * W (ix2 (i 1) (band 3 k)))
      + b (ix1 (i 1))

/-- The linear layer over all 512 concatenated columns at once, then the bias. -/
def linWhole (H : Cat.Idx → EReal) (W : Weight.Idx → EReal) (b : Bias.Idx → EReal) : Nodes.Idx → EReal :=
  fun i => (∑ k : Fin 512, H (ix2 (i 0) k) * W (ix2 (i 1) k)) + b (ix1 (i 1))

/-- The whole computation in the band-by-band arrangement. -/
def powerConv (X : Nodes.Idx → EReal) (A : Adj.Idx → EReal) (W : Weight.Idx → EReal) (b : Bias.Idx → EReal) : Nodes.Idx → EReal :=
  linBands X (step A X) (step A (step A X)) (step A (step A (step A X))) W b

/-- A sum over 512 columns is the sum of its four bands of 128, in any commutative monoid. -/
theorem sum_bands {M : Type*} [AddCommMonoid M] (f : Fin 512 → M) :
    ∑ k : Fin 512, f k
      = (((∑ k : Fin 128, f (band 0 k)) + ∑ k : Fin 128, f (band 1 k)) + ∑ k : Fin 128, f (band 2 k)) + ∑ k : Fin 128, f (band 3 k) := by
  have h3 := Fin.sum_univ_add (a := 384) (b := 128) f
  have h2 := Fin.sum_univ_add (a := 256) (b := 128) (fun i => f (Fin.castAdd 128 i))
  have h1 := Fin.sum_univ_add (a := 128) (b := 128) (fun i => f (Fin.castAdd 128 (Fin.castAdd 128 i)))
  rw [h3, h2, h1]
  refine congrArg₂ (· + ·) (congrArg₂ (· + ·) (congrArg₂ (· + ·) ?_ ?_) ?_) ?_ <;>
    exact Finset.sum_congr rfl fun k _ => congrArg f (Fin.ext (by
      simp only [band, Fin.val_natAdd, Fin.val_castAdd, Fin.coe_castAdd, Fin.coe_natAdd, Fin.val_zero, Fin.val_one, Fin.val_two]
      try omega))

/-- If `H` is the four blocks side by side, the whole-row sum is the band-by-band sum. -/
theorem linWhole_eq_linBands (H : Cat.Idx → EReal) (X Z1 Z2 Z3 : Nodes.Idx → EReal) (W : Weight.Idx → EReal) (b : Bias.Idx → EReal)
    (h0 : ∀ (r : Fin 10000) (k : Fin 128), H (ix2 r (band 0 k)) = X (ix2 r k))
    (h1 : ∀ (r : Fin 10000) (k : Fin 128), H (ix2 r (band 1 k)) = Z1 (ix2 r k))
    (h2 : ∀ (r : Fin 10000) (k : Fin 128), H (ix2 r (band 2 k)) = Z2 (ix2 r k))
    (h3 : ∀ (r : Fin 10000) (k : Fin 128), H (ix2 r (band 3 k)) = Z3 (ix2 r k)) :
    linWhole H W b = linBands X Z1 Z2 Z3 W b := by
  funext i
  show (∑ k : Fin 512, H (ix2 (i 0) k) * W (ix2 (i 1) k)) + b (ix1 (i 1)) = _
  rw [sum_bands (fun k => H (ix2 (i 0) k) * W (ix2 (i 1) k))]
  refine congrArg (· + b (ix1 (i 1))) ?_
  refine congrArg₂ (· + ·) (congrArg₂ (· + ·) (congrArg₂ (· + ·) ?_ ?_) ?_) ?_
  · exact Finset.sum_congr rfl fun k _ => congrArg (· * W (ix2 (i 1) (band 0 k))) (h0 (i 0) k)
  · exact Finset.sum_congr rfl fun k _ => congrArg (· * W (ix2 (i 1) (band 1 k))) (h1 (i 0) k)
  · exact Finset.sum_congr rfl fun k _ => congrArg (· * W (ix2 (i 1) (band 2 k))) (h2 (i 0) k)
  · exact Finset.sum_congr rfl fun k _ => congrArg (· * W (ix2 (i 1) (band 3 k))) (h3 (i 0) k)

end Cert.Spec

end
-- ==== Proof.PropagateFirst.lean ====
/-
  Region 0: the first propagation step, Z₁ = A · X, over blocks of 200 rows; the same pass copies the adjacency.

  The grid has 50 points; point t handles rows 200·t … 200·t + 199.  Its body multiplies the block of 200 rows of the
  adjacency by the whole feature array (kept resident) into a zero accumulator, so the block it writes back holds, at
  (p, q), the sum over k of A(200·t + p, k) · X(k, q): rows 200·t … of `Spec.step A X`.  It also writes the block of the
  adjacency back unchanged into a second array (a change of float format is the identity on the extended reals).
  The 50 blocks tile the 10000 rows, so the first array ends as `Spec.step A X` and the second as A itself.
-/
import proofs.«114706_g12524124635992_retrytranche1_277_3_alg».proof.Proof.Gen.KernelIdeal.Frame
import proofs.«114706_g12524124635992_retrytranche1_277_3_alg».proof.Proof.PowerConvSpec
import Idealize.ShloMosaic.Lib.Pipeline.Value
import Idealize.ShloMosaic.Lib.ValueIdx
import Idealize.ShloMosaic.PureOps.Ideal.Laws

noncomputable section

namespace Cert.KernelIdeal.PropagateFirst

open Idealize.ShloMosaic Idealize.ShloMosaic.TcCoe Idealize.ShloMosaic.ValueIdx Idealize.SL.Sem
open Cert.KernelIdeal Cert.KernelIdeal.Gen

theorem zero_offsets : (![0, 0] : Fin 2 → Nat) = fun _ => 0 := funext fun a => by fin_cases a <;> rfl

/-! ## The matrix product's operand indices -/

theorem lhs_row (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_col (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhs_row (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhs_col (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The product of a 200-row block with the feature array, into zero, at (p, q): the sum over k of the products. -/
theorem product_apply (a : FVec Ideal S200x10000 .bf16) (z : FVec Ideal S10000x128 .bf16) (p : Fin 200) (q : Fin 128) :
    FloatOps.matmul dot_S200x10000_S10000x128_S200x128_1_0_0_1_n_n none a z (constant S200x128 .f32 0x00000000#32) (ix2 p q)
      = ∑ k : Fin 10000, a (ix2 p k) * z (ix2 k q) := by
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun a => Fin.ext (by
    match a with
    | ⟨0, _⟩ => exact lhs_row _ _
    | ⟨1, _⟩ => exact (lhs_col _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun a => Fin.ext (by
    match a with
    | ⟨0, _⟩ => exact (rhs_row _ _).trans hk
    | ⟨1, _⟩ => exact rhs_col _ _)
  rw [el, er]

/-- The body's stored value at (p, q), from the blocks it loads. -/
theorem payload_apply (a : FVec Ideal S200x10000 .f32) (z : FVec Ideal S10000x128 .bf16) (p : Fin 200) (q : Fin 128) :
    k0_pay2 (F := Ideal) a z (ix2 p q) = ∑ k : Fin 10000, a (ix2 p k) * z (ix2 k q) := by
  unfold k0_pay2 k0_pay1
  rw [truncf_apply, shapeCast_self]
  exact product_apply (truncf .bf16 a bitsLt_bf16_f32) z p q

/-! ## From the blocks to the array -/

/-- The printed index maps, decided over the grid: block t of the adjacency and of the result start at row 200·t,
    the feature array is read whole. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of one propagation step of the arrays the region finds. -/
theorem flushed_eq (c : Dev nD) (t : Fin cfg0.N) :
    (dat0 (F := Ideal) V c).flushed 2 t = ((cfg0.win 2).blk t).view.read (Elt Ideal) (Spec.step (V c main_arg1) (V c main_v0)) := by
  show (cfg0.win 2).cut (grid0.coords t) ((dat0 V c).after 2 t) = _
  rw [after0_2]
  unfold out0_2
  rw [View.canon_unit_zero zero_offsets]
  simp only [View.ld_unit_zero (S := S200x10000) zero_offsets, View.ld_unit_zero (S := S10000x128) zero_offsets]
  obtain ⟨e0, e1, e2, e3, e4, e5, e6, e7⟩ := index_facts t
  funext j
  obtain ⟨p, q, rfl⟩ : ∃ (p : Fin 200) (q : Fin 128), j = ix2 p q := ⟨j 0, j 1, eq_ix2 j⟩
  refine (payload_apply (iblk0 V c 0 t) (iblk0 V c 1 t) p q).trans ?_
  show _ = Spec.step (V c main_arg1) (V c main_v0) (((cfg0.win 2).blk t).view.emb (ix2 p q))
  unfold Spec.step
  refine Finset.sum_congr rfl fun k _ => congrArg₂ (· * ·) ?_ ?_
  · show V c main_arg1 (((cfg0.win 0).blk t).view.emb (ix2 p k)) = _
    refine congrArg (V c main_arg1) (funext fun a => Fin.ext ?_)
    match a with
    | ⟨0, _⟩ => show win0_0.index t (0 : Fin 2) * 200 + 1 * p.val = win0_2.index t (0 : Fin 2) * 200 + 1 * p.val; omega
    | ⟨1, _⟩ => show win0_0.index t (1 : Fin 2) * 10000 + 1 * k.val = k.val; omega
  · show V c main_v0 (((cfg0.win 1).blk t).view.emb (ix2 k q)) = _
    refine congrArg (V c main_v0) (funext fun a => Fin.ext ?_)
    match a with
    | ⟨0, _⟩ => show win0_1.index t (0 : Fin 2) * 10000 + 1 * k.val = k.val; omega
    | ⟨1, _⟩ => show win0_1.index t (1 : Fin 2) * 128 + 1 * q.val = win0_2.index t (1 : Fin 2) * 128 + 1 * q.val; omega

/-- An index of the result array is in point t's block iff each coordinate is in the block's range on its axis. -/
theorem mem_block (t : Fin cfg0.N) (i : S10000x128.Idx) :
    i ∈ ((cfg0.win 2).blk t).view.set ↔ ∀ a : Fin 2, win0_2.index t a * S200x128.size a ≤ (i a).val ∧ (i a).val < win0_2.index t a * S200x128.size a + S200x128.size a := by
  show i ∈ ((View.whole main_v1_0).slice (win0_2.rect t)).set ↔ _
  rw [View.set_slice_whole, Rect.mem_set_unit]
  exact Iff.rfl

/-- Every row lies in the block of the point numbered by the row divided by 200. -/
theorem covered (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  have hN : grid0.N = 50 := N_0
  let t : Fin cfg0.N := ⟨(i 0).val / 200, by show (i 0).val / 200 < grid0.N; rw [hN]; omega⟩
  obtain ⟨e0, e1, e2, e3, e4, e5, e6, e7⟩ := index_facts t
  have e4' : win0_2.index t (0 : Fin 2) = (i 0).val / 200 := e4
  refine ⟨t, flush0_2 t, ?_⟩
  rw [mem_block]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 128 ≤ (i 1).val ∧ (i 1).val < win0_2.index t (1 : Fin 2) * 128 + 128; omega

/-- The result array after the region: one propagation step of the arrays the region finds. -/
theorem final (c : Dev nD) : (dat0 (F := Ideal) V c).arrAt 2 cfg0.N = Spec.step (V c main_arg1) (V c main_v0) :=
  (dat0 V c).arrAt_eq_of_cover 2 _ (fun t _ => flushed_eq V c t) covered

/-! ## The copy of the adjacency (window 3) -/

/-- What point t writes back into the copy is block t of the adjacency the region finds. -/
theorem flushed_copy_eq (c : Dev nD) (t : Fin cfg0.N) :
    (dat0 (F := Ideal) V c).flushed 3 t = ((cfg0.win 3).blk t).view.read (Elt Ideal) (fun i => V c main_arg1 i) := by
  show (cfg0.win 3).cut (grid0.coords t) ((dat0 V c).after 3 t) = _
  rw [after0_3]
  unfold out0_3
  rw [View.canon_unit_zero zero_offsets]
  simp only [View.ld_unit_zero (S := S200x10000) zero_offsets]
  obtain ⟨e0, e1, e2, e3, e4, e5, e6, e7⟩ := index_facts t
  funext j
  obtain ⟨p, k, rfl⟩ : ∃ (p : Fin 200) (k : Fin 10000), j = ix2 p k := ⟨j 0, j 1, eq_ix2 j⟩
  show V c main_arg1 (((cfg0.win 0).blk t).view.emb (ix2 p k)) = V c main_arg1 (((cfg0.win 3).blk t).view.emb (ix2 p k))
  refine congrArg (V c main_arg1) (funext fun a => Fin.ext ?_)
  match a with
  | ⟨0, _⟩ => show win0_0.index t (0 : Fin 2) * 200 + 1 * p.val = win0_3.index t (0 : Fin 2) * 200 + 1 * p.val; omega
  | ⟨1, _⟩ => show win0_0.index t (1 : Fin 2) * 10000 + 1 * k.val = win0_3.index t (1 : Fin 2) * 10000 + 1 * k.val; omega

theorem mem_block_copy (t : Fin cfg0.N) (i : S10000x10000.Idx) :
    i ∈ ((cfg0.win 3).blk t).view.set ↔ ∀ a : Fin 2, win0_3.index t a * S200x10000.size a ≤ (i a).val ∧ (i a).val < win0_3.index t a * S200x10000.size a + S200x10000.size a := by
  show i ∈ ((View.whole main_v1_1).slice (win0_3.rect t)).set ↔ _
  rw [View.set_slice_whole, Rect.mem_set_unit]
  exact Iff.rfl

theorem covered_copy (i : S10000x10000.Idx) : ∃ t : Fin cfg0.N, (cfg0.win 3).flush t = true ∧ i ∈ ((cfg0.win 3).blk t).view.set := by
  have hi0 : (i 0).val < 10000 := (i 0).isLt
  have hi1 : (i 1).val < 10000 := (i 1).isLt
  have hN : grid0.N = 50 := N_0
  let t : Fin cfg0.N := ⟨(i 0).val / 200, by show (i 0).val / 200 < grid0.N; rw [hN]; omega⟩
  obtain ⟨e0, e1, e2, e3, e4, e5, e6, e7⟩ := index_facts t
  have e6' : win0_3.index t (0 : Fin 2) = (i 0).val / 200 := e6
  refine ⟨t, flush0_3 t, ?_⟩
  rw [mem_block_copy]
  intro a
  match a with
  | ⟨0, _⟩ => show win0_3.index t (0 : Fin 2) * 200 ≤ (i 0).val ∧ (i 0).val < win0_3.index t (0 : Fin 2) * 200 + 200; omega
  | ⟨1, _⟩ => show win0_3.index t (1 : Fin 2) * 10000 ≤ (i 1).val ∧ (i 1).val < win0_3.index t (1 : Fin 2) * 10000 + 10000; omega

/-- The copy after the region: the adjacency the region finds. -/
theorem final_copy (c : Dev nD) : (dat0 (F := Ideal) V c).arrAt 3 cfg0.N = (fun i => V c main_arg1 i) :=
  (dat0 V c).arrAt_eq_of_cover 3 _ (fun t _ => flushed_copy_eq V c t) covered_copy

end Cert.KernelIdeal.PropagateFirst

end
-- ==== Proof.PropagateSecond.lean ====
/-
  Region 1: the second propagation step, Z₂ = A · Z₁, over blocks of 400 rows.

  The grid has 25 points; point t handles rows 400·t … 400·t + 399.  Its body multiplies the block of 400 rows of the
  adjacency by the whole feature array (kept resident) into a zero accumulator, so the block it writes back holds, at
  (p, q), the sum over k of A(400·t + p, k) · Z(k, q): rows 400·t … of `Spec.step A Z`.  A change of float format is the
  identity on the extended reals.  The 25 blocks tile the 10000 rows, so the array ends as `Spec.step A Z`.
-/
import proofs.«114706_g12524124635992_retrytranche1_277_3_alg».proof.Proof.Gen.KernelIdeal.Frame
import proofs.«114706_g12524124635992_retrytranche1_277_3_alg».proof.Proof.PowerConvSpec
import Idealize.ShloMosaic.Lib.Pipeline.Value
import Idealize.ShloMosaic.Lib.ValueIdx
import Idealize.ShloMosaic.PureOps.Ideal.Laws

noncomputable section

namespace Cert.KernelIdeal.PropagateSecond

open Idealize.ShloMosaic Idealize.ShloMosaic.TcCoe Idealize.ShloMosaic.ValueIdx Idealize.SL.Sem
open Cert.KernelIdeal Cert.KernelIdeal.Gen

theorem zero_offsets : (![0, 0] : Fin 2 → Nat) = fun _ => 0 := funext fun a => by fin_cases a <;> rfl

/-! ## The matrix product's operand indices -/

theorem lhs_row (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_col (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_row (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_col (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The product of a 400-row block with the feature array, into zero, at (p, q): the sum over k of the products. -/
theorem product_apply (a : FVec Ideal S400x10000 .bf16) (z : FVec Ideal S10000x128 .bf16) (p : Fin 400) (q : Fin 128) :
    FloatOps.matmul dot_S400x10000_S10000x128_S400x128_1_0_0_1_n_n none a z (constant S400x128 .f32 0x00000000#32) (ix2 p q)
      = ∑ k : Fin 10000, a (ix2 p k) * z (ix2 k q) := by
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_row _ _
    | ⟨1, _⟩ => exact (lhs_col _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_row _ _).trans hk
    | ⟨1, _⟩ => exact rhs_col _ _)
  rw [el, er]

/-- The body's stored value at (p, q), from the blocks it loads. -/
theorem payload_apply (a : FVec Ideal S400x10000 .bf16) (z : FVec Ideal S10000x128 .bf16) (p : Fin 400) (q : Fin 128) :
    k1_pay1 (F := Ideal) a z (ix2 p q) = ∑ k : Fin 10000, a (ix2 p k) * z (ix2 k q) := by
  unfold k1_pay1
  rw [truncf_apply, shapeCast_self, shapeCast_self]
  exact product_apply a z p q

/-! ## From the blocks to the array -/

/-- The printed index maps, decided over the grid: block t of the adjacency and of the result start at row 400·t,
    the feature array is read whole. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of one propagation step of the arrays the region finds. -/
theorem flushed_eq (c : Dev nD) (t : Fin cfg1.N) :
    (dat1 (F := Ideal) V c).flushed 2 t = ((cfg1.win 2).blk t).view.read (Elt Ideal) (Spec.step (V c main_v1_1) (V c main_v1_0)) := by
  show (cfg1.win 2).cut (grid1.coords t) ((dat1 V c).after 2 t) = _
  rw [after1_2]
  unfold out1_2
  rw [View.canon_unit_zero zero_offsets]
  simp only [View.ld_unit_zero (S := S400x10000) zero_offsets, View.ld_unit_zero (S := S10000x128) zero_offsets]
  obtain ⟨e0, e1, e2, e3, e4, e5⟩ := index_facts t
  funext j
  obtain ⟨p, q, rfl⟩ : ∃ (p : Fin 400) (q : Fin 128), j = ix2 p q := ⟨j 0, j 1, eq_ix2 j⟩
  refine (payload_apply (iblk1 V c 0 t) (iblk1 V c 1 t) p q).trans ?_
  show _ = Spec.step (V c main_v1_1) (V c main_v1_0) (((cfg1.win 2).blk t).view.emb (ix2 p q))
  unfold Spec.step
  refine Finset.sum_congr rfl fun k _ => congrArg₂ (· * ·) ?_ ?_
  · show V c main_v1_1 (((cfg1.win 0).blk t).view.emb (ix2 p k)) = _
    refine congrArg (V c main_v1_1) (funext fun a => Fin.ext ?_)
    match a with
    | ⟨0, _⟩ => show win1_0.index t (0 : Fin 2) * 400 + 1 * p.val = win1_2.index t (0 : Fin 2) * 400 + 1 * p.val; omega
    | ⟨1, _⟩ => show win1_0.index t (1 : Fin 2) * 10000 + 1 * k.val = k.val; omega
  · show V c main_v1_0 (((cfg1.win 1).blk t).view.emb (ix2 k q)) = _
    refine congrArg (V c main_v1_0) (funext fun a => Fin.ext ?_)
    match a with
    | ⟨0, _⟩ => show win1_1.index t (0 : Fin 2) * 10000 + 1 * k.val = k.val; omega
    | ⟨1, _⟩ => show win1_1.index t (1 : Fin 2) * 128 + 1 * q.val = win1_2.index t (1 : Fin 2) * 128 + 1 * q.val; omega

/-- An index of the result array is in point t's block iff each coordinate is in the block's range on its axis. -/
theorem mem_block (t : Fin cfg1.N) (i : S10000x128.Idx) :
    i ∈ ((cfg1.win 2).blk t).view.set ↔ ∀ a : Fin 2, win1_2.index t a * S400x128.size a ≤ (i a).val ∧ (i a).val < win1_2.index t a * S400x128.size a + S400x128.size a := by
  show i ∈ ((View.whole main_v2).slice (win1_2.rect t)).set ↔ _
  rw [View.set_slice_whole, Rect.mem_set_unit]
  exact Iff.rfl

/-- Every row lies in the block of the point numbered by the row divided by 400. -/
theorem covered (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  have hN : grid1.N = 25 := N_1
  let t : Fin cfg1.N := ⟨(i 0).val / 400, by show (i 0).val / 400 < grid1.N; rw [hN]; omega⟩
  obtain ⟨e0, e1, e2, e3, e4, e5⟩ := index_facts t
  have e4' : win1_2.index t (0 : Fin 2) = (i 0).val / 400 := e4
  refine ⟨t, flush1_2 t, ?_⟩
  rw [mem_block]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 128 ≤ (i 1).val ∧ (i 1).val < win1_2.index t (1 : Fin 2) * 128 + 128; omega

/-- The result array after the region: one propagation step of the arrays the region finds. -/
theorem final (c : Dev nD) : (dat1 (F := Ideal) V c).arrAt 2 cfg1.N = Spec.step (V c main_v1_1) (V c main_v1_0) :=
  (dat1 V c).arrAt_eq_of_cover 2 _ (fun t _ => flushed_eq V c t) covered

end Cert.KernelIdeal.PropagateSecond

end
-- ==== Proof.PropagateThird.lean ====
/-
  Region 2: the third propagation step, Z₃ = A · Z₂, over blocks of 400 rows.

  The grid has 25 points; point t handles rows 400·t … 400·t + 399.  Its body multiplies the block of 400 rows of the
  adjacency by the whole feature array (kept resident) into a zero accumulator, so the block it writes back holds, at
  (p, q), the sum over k of A(400·t + p, k) · Z(k, q): rows 400·t … of `Spec.step A Z`.  A change of float format is the
  identity on the extended reals.  The 25 blocks tile the 10000 rows, so the array ends as `Spec.step A Z`.
-/
import proofs.«114706_g12524124635992_retrytranche1_277_3_alg».proof.Proof.Gen.KernelIdeal.Frame
import proofs.«114706_g12524124635992_retrytranche1_277_3_alg».proof.Proof.PowerConvSpec
import Idealize.ShloMosaic.Lib.Pipeline.Value
import Idealize.ShloMosaic.Lib.ValueIdx
import Idealize.ShloMosaic.PureOps.Ideal.Laws

noncomputable section

namespace Cert.KernelIdeal.PropagateThird

open Idealize.ShloMosaic Idealize.ShloMosaic.TcCoe Idealize.ShloMosaic.ValueIdx Idealize.SL.Sem
open Cert.KernelIdeal Cert.KernelIdeal.Gen

theorem zero_offsets : (![0, 0] : Fin 2 → Nat) = fun _ => 0 := funext fun a => by fin_cases a <;> rfl

/-! ## The matrix product's operand indices -/

theorem lhs_row (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_col (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_row (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_col (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The product of a 400-row block with the feature array, into zero, at (p, q): the sum over k of the products. -/
theorem product_apply (a : FVec Ideal S400x10000 .bf16) (z : FVec Ideal S10000x128 .bf16) (p : Fin 400) (q : Fin 128) :
    FloatOps.matmul dot_S400x10000_S10000x128_S400x128_1_0_0_1_n_n none a z (constant S400x128 .f32 0x00000000#32) (ix2 p q)
      = ∑ k : Fin 10000, a (ix2 p k) * z (ix2 k q) := by
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_row _ _
    | ⟨1, _⟩ => exact (lhs_col _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_row _ _).trans hk
    | ⟨1, _⟩ => exact rhs_col _ _)
  rw [el, er]

/-- The body's stored value at (p, q), from the blocks it loads. -/
theorem payload_apply (a : FVec Ideal S400x10000 .bf16) (z : FVec Ideal S10000x128 .bf16) (p : Fin 400) (q : Fin 128) :
    k2_pay1 (F := Ideal) a z (ix2 p q) = ∑ k : Fin 10000, a (ix2 p k) * z (ix2 k q) := by
  unfold k2_pay1
  rw [truncf_apply, shapeCast_self, shapeCast_self]
  exact product_apply a z p q

/-! ## From the blocks to the array -/

/-- The printed index maps, decided over the grid: block t of the adjacency and of the result start at row 400·t,
    the feature array is read whole. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of one propagation step of the arrays the region finds. -/
theorem flushed_eq (c : Dev nD) (t : Fin cfg2.N) :
    (dat2 (F := Ideal) V c).flushed 2 t = ((cfg2.win 2).blk t).view.read (Elt Ideal) (Spec.step (V c main_v1_1) (V c main_v2)) := by
  show (cfg2.win 2).cut (grid2.coords t) ((dat2 V c).after 2 t) = _
  rw [after2_2]
  unfold out2_2
  rw [View.canon_unit_zero zero_offsets]
  simp only [View.ld_unit_zero (S := S400x10000) zero_offsets, View.ld_unit_zero (S := S10000x128) zero_offsets]
  obtain ⟨e0, e1, e2, e3, e4, e5⟩ := index_facts t
  funext j
  obtain ⟨p, q, rfl⟩ : ∃ (p : Fin 400) (q : Fin 128), j = ix2 p q := ⟨j 0, j 1, eq_ix2 j⟩
  refine (payload_apply (iblk2 V c 0 t) (iblk2 V c 1 t) p q).trans ?_
  show _ = Spec.step (V c main_v1_1) (V c main_v2) (((cfg2.win 2).blk t).view.emb (ix2 p q))
  unfold Spec.step
  refine Finset.sum_congr rfl fun k _ => congrArg₂ (· * ·) ?_ ?_
  · show V c main_v1_1 (((cfg2.win 0).blk t).view.emb (ix2 p k)) = _
    refine congrArg (V c main_v1_1) (funext fun a => Fin.ext ?_)
    match a with
    | ⟨0, _⟩ => show win2_0.index t (0 : Fin 2) * 400 + 1 * p.val = win2_2.index t (0 : Fin 2) * 400 + 1 * p.val; omega
    | ⟨1, _⟩ => show win2_0.index t (1 : Fin 2) * 10000 + 1 * k.val = k.val; omega
  · show V c main_v2 (((cfg2.win 1).blk t).view.emb (ix2 k q)) = _
    refine congrArg (V c main_v2) (funext fun a => Fin.ext ?_)
    match a with
    | ⟨0, _⟩ => show win2_1.index t (0 : Fin 2) * 10000 + 1 * k.val = k.val; omega
    | ⟨1, _⟩ => show win2_1.index t (1 : Fin 2) * 128 + 1 * q.val = win2_2.index t (1 : Fin 2) * 128 + 1 * q.val; omega

/-- An index of the result array is in point t's block iff each coordinate is in the block's range on its axis. -/
theorem mem_block (t : Fin cfg2.N) (i : S10000x128.Idx) :
    i ∈ ((cfg2.win 2).blk t).view.set ↔ ∀ a : Fin 2, win2_2.index t a * S400x128.size a ≤ (i a).val ∧ (i a).val < win2_2.index t a * S400x128.size a + S400x128.size a := by
  show i ∈ ((View.whole main_v3).slice (win2_2.rect t)).set ↔ _
  rw [View.set_slice_whole, Rect.mem_set_unit]
  exact Iff.rfl

/-- Every row lies in the block of the point numbered by the row divided by 400. -/
theorem covered (i : S10000x128.Idx) : ∃ t : Fin cfg2.N, (cfg2.win 2).flush t = true ∧ i ∈ ((cfg2.win 2).blk t).view.set := by
  have hi0 : (i 0).val < 10000 := (i 0).isLt
  have hi1 : (i 1).val < 128 := (i 1).isLt
  have hN : grid2.N = 25 := N_2
  let t : Fin cfg2.N := ⟨(i 0).val / 400, by show (i 0).val / 400 < grid2.N; rw [hN]; omega⟩
  obtain ⟨e0, e1, e2, e3, e4, e5⟩ := index_facts t
  have e4' : win2_2.index t (0 : Fin 2) = (i 0).val / 400 := e4
  refine ⟨t, flush2_2 t, ?_⟩
  rw [mem_block]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 128 ≤ (i 1).val ∧ (i 1).val < win2_2.index t (1 : Fin 2) * 128 + 128; omega

/-- The result array after the region: one propagation step of the arrays the region finds. -/
theorem final (c : Dev nD) : (dat2 (F := Ideal) V c).arrAt 2 cfg2.N = Spec.step (V c main_v1_1) (V c main_v2) :=
  (dat2 V c).arrAt_eq_of_cover 2 _ (fun t _ => flushed_eq V c t) covered

end Cert.KernelIdeal.PropagateThird

end
-- ==== Proof.LinearBands.lean ====
/-
  Region 3: the linear layer over the four bands, over blocks of 2000 rows.

  The grid has 5 points; point t handles rows 2000·t … 2000·t + 1999.  Its body multiplies the block of X by rows
  0 … 127 of the transposed weight, the blocks of Z₁, Z₂, Z₃ by rows 128 …, 256 …, 384 … of it (each product into a
  zero accumulator), adds the four products from left to right and then the bias row.  So the block it writes back
  holds, at (p, q), the four band sums of row 2000·t + p against column q plus the bias at q (`bandsOf`).  A change
  of float format is the identity on the extended reals.  The 5 blocks tile the 10000 rows.
-/
import proofs.«114706_g12524124635992_retrytranche1_277_3_alg».proof.Proof.Gen.KernelIdeal.Frame
import proofs.«114706_g12524124635992_retrytranche1_277_3_alg».proof.Proof.PowerConvSpec
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.LinearBands

open Idealize.ShloMosaic Idealize.ShloMosaic.TcCoe Idealize.ShloMosaic.ValueIdx Idealize.SL.Sem
open Cert.KernelIdeal Cert.KernelIdeal.Gen

theorem zero_offsets : (![0, 0] : Fin 2 → Nat) = fun _ => 0 := funext fun a => by fin_cases a <;> rfl

/-- The region's result as one function of the arrays it finds: the features and the three propagated arrays, the
    transposed weight (twice: the second copy is the one the last three bands read) and the bias as one row. -/
def bandsOf (X Z1 Z2 Z3 : S10000x128.Idx → EReal) (wt wtb : S512x128.Idx → EReal) (b2 : S1x128.Idx → EReal) : S10000x128.Idx → EReal :=
  fun i => ((((∑ k : Fin 128, X (ix2 (i 0) k) * wt (ix2 (Spec.band 0 k) (i 1)))
      + ∑ k : Fin 128, Z1 (ix2 (i 0) k) * wtb (ix2 (Spec.band 1 k) (i 1)))
      + ∑ k : Fin 128, Z2 (ix2 (i 0) k) * wtb (ix2 (Spec.band 2 k) (i 1)))
      + ∑ k : Fin 128, Z3 (ix2 (i 0) k) * wtb (ix2 (Spec.band 3 k) (i 1)))
      + b2 (ix2 (0 : Fin 1) (i 1))

/-! ## The matrix product's operand indices -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a 2000-row block with a 128 × 128 band of the weight, into zero, at (p, q). -/
theorem product_apply {φ₁ φ₂ : FTy} (a : FVec Ideal S2000x128 φ₁) (w : FVec Ideal S128x128 φ₂) (p : Fin 2000) (q : Fin 128) :
    FloatOps.matmul dot_S2000x128_S128x128_S2000x128_1_0_0_1_n_n none a w (constant S2000x128 .f32 0x00000000#32) (ix2 p q)
      = ∑ k : Fin 128, a (ix2 p k) * w (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The body's stored value at (p, q), from the blocks it loads. -/
theorem payload_apply (wtb : FVec Ideal S512x128 .bf16) (x : FVec Ideal S2000x128 .f32) (w0 : FVec Ideal S128x128 .f32)
    (z1 z2 z3 : FVec Ideal S2000x128 .bf16) (b2 : FVec Ideal S1x128 .f32) (p : Fin 2000) (q : Fin 128) :
    k3_pay1 (F := Ideal) wtb x w0 z1 z2 z3 b2 (ix2 p q)
      = ((((∑ k : Fin 128, x (ix2 p k) * w0 (ix2 k q))
          + ∑ k : Fin 128, z1 (ix2 p k) * wtb (ix2 (Spec.band 1 k) q))
          + ∑ k : Fin 128, z2 (ix2 p k) * wtb (ix2 (Spec.band 2 k) q))
          + ∑ k : Fin 128, z3 (ix2 p k) * wtb (ix2 (Spec.band 3 k) q))
          + b2 (ix2 (0 : Fin 1) q) := by
  unfold k3_pay1
  simp only [addf_apply, shapeCast_self]
  refine congrArg₂ (· + ·) (congrArg₂ (· + ·) (congrArg₂ (· + ·) (congrArg₂ (· + ·) ?_ ?_) ?_) ?_) ?_
  · exact product_apply x w0 p q
  · refine (product_apply z1 _ p q).trans (Finset.sum_congr rfl fun k _ => congrArg (z1 (ix2 p k) * ·) ?_)
    exact slice2_axis0_apply 128 wtb _ k q (Spec.band 1 k) (by show 128 * 1 + k.val = 128 + k.val; omega)
  · refine (product_apply z2 _ p q).trans (Finset.sum_congr rfl fun k _ => congrArg (z2 (ix2 p k) * ·) ?_)
    exact slice2_axis0_apply 256 wtb _ k q (Spec.band 2 k) (by show 128 * 2 + k.val = 256 + k.val; omega)
  · refine (product_apply z3 _ p q).trans (Finset.sum_congr rfl fun k _ => congrArg (z3 (ix2 p k) * ·) ?_)
    exact slice2_axis0_apply 384 wtb _ k q (Spec.band 3 k) (by show 128 * 3 + k.val = 384 + k.val; omega)
  · exact broadcastTo_1b_ab_apply b2 _ p q

/-! ## From the blocks to the array -/

/-- The printed index maps, decided over the grid: block t of the four row-blocked inputs and of the result start at
    row 2000·t; the two weight copies and the bias row are read whole. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

variable (V : (c : Dev nD) → (b : Ref sig .tc) → Buf (Elt Ideal) ((c : Thread nD τ).loc b))

/-- What point t writes back is block t of `bandsOf` of the arrays the region finds. -/
theorem flushed_eq (c : Dev nD) (t : Fin cfg3.N) :
    (dat3 (F := Ideal) V c).flushed 7 t = ((cfg3.win 7).blk t).view.read (Elt Ideal)
      (bandsOf (V c main_arg0) (V c main_v1_0) (V c main_v2) (V c main_v3) (V c main_v4) (V c main_v5) (V c main_v6)) := by
  show (cfg3.win 7).cut (grid3.coords t) ((dat3 V c).after 7 t) = _
  rw [after3_7]
  unfold out3_7
  rw [View.canon_unit_zero zero_offsets]
  simp only [View.ld_unit_zero (S := S512x128) zero_offsets, View.ld_unit_zero (S := S2000x128) zero_offsets, View.ld_unit_zero (S := S1x128) zero_offsets]
  obtain ⟨a0, a1, b0, b1, c0, c1, d0, d1, w0, w1, v0, v1, r0, r1, o0, o1⟩ := index_facts t
  funext j
  obtain ⟨p, q, rfl⟩ : ∃ (p : Fin 2000) (q : Fin 128), j = ix2 p q := ⟨j 0, j 1, eq_ix2 j⟩
  refine (payload_apply (iblk3 V c 5 t) (iblk3 V c 0 t) (View.ld (iblk3 V c 4 t) r3_2) (iblk3 V c 1 t) (iblk3 V c 2 t) (iblk3 V c 3 t) (iblk3 V c 6 t) p q).trans ?_
  show _ = bandsOf (V c main_arg0) (V c main_v1_0) (V c main_v2) (V c main_v3) (V c main_v4) (V c main_v5) (V c main_v6) (((cfg3.win 7).blk t).view.emb (ix2 p q))
  unfold bandsOf
  refine congrArg₂ (· + ·) (congrArg₂ (· + ·) (congrArg₂ (· + ·) (congrArg₂ (· + ·) ?_ ?_) ?_) ?_) ?_
  · refine Finset.sum_congr rfl fun k _ => congrArg₂ (· * ·) ?_ ?_
    · show V c main_arg0 (((cfg3.win 0).blk t).view.emb (ix2 p k)) = _
      refine congrArg (V c main_arg0) (funext fun a => Fin.ext ?_)
      match a with
      | ⟨0, _⟩ => show win3_0.index t (0 : Fin 2) * 2000 + 1 * p.val = win3_7.index t (0 : Fin 2) * 2000 + 1 * p.val; omega
      | ⟨1, _⟩ => show win3_0.index t (1 : Fin 2) * 128 + 1 * k.val = k.val; omega
    · show V c main_v4 (((cfg3.win 4).blk t).view.emb (r3_2.idx (ix2 k q))) = _
      refine congrArg (V c main_v4) (funext fun a => Fin.ext ?_)
      match a with
      | ⟨0, _⟩ => show win3_4.index t (0 : Fin 2) * 512 + 1 * (0 + 1 * k.val) = 128 * 0 + k.val; omega
      | ⟨1, _⟩ => show win3_4.index t (1 : Fin 2) * 128 + 1 * (0 + 1 * q.val) = win3_7.index t (1 : Fin 2) * 128 + 1 * q.val; omega
  · refine Finset.sum_congr rfl fun k _ => congrArg₂ (· * ·) ?_ ?_
    · show V c main_v1_0 (((cfg3.win 1).blk t).view.emb (ix2 p k)) = _
      refine congrArg (V c main_v1_0) (funext fun a => Fin.ext ?_)
      match a with
      | ⟨0, _⟩ => show win3_1.index t (0 : Fin 2) * 2000 + 1 * p.val = win3_7.index t (0 : Fin 2) * 2000 + 1 * p.val; omega
      | ⟨1, _⟩ => show win3_1.index t (1 : Fin 2) * 128 + 1 * k.val = k.val; omega
    · show V c main_v5 (((cfg3.win 5).blk t).view.emb (ix2 (Spec.band 1 k) q)) = _
      refine congrArg (V c main_v5) (funext fun a => Fin.ext ?_)
      match a with
      | ⟨0, _⟩ => show win3_5.index t (0 : Fin 2) * 512 + 1 * (128 * 1 + k.val) = 128 * 1 + k.val; omega
      | ⟨1, _⟩ => show win3_5.index t (1 : Fin 2) * 128 + 1 * q.val = win3_7.index t (1 : Fin 2) * 128 + 1 * q.val; omega
  · refine Finset.sum_congr rfl fun k _ => congrArg₂ (· * ·) ?_ ?_
    · show V c main_v2 (((cfg3.win 2).blk t).view.emb (ix2 p k)) = _
      refine congrArg (V c main_v2) (funext fun a => Fin.ext ?_)
      match a with
      | ⟨0, _⟩ => show win3_2.index t (0 : Fin 2) * 2000 + 1 * p.val = win3_7.index t (0 : Fin 2) * 2000 + 1 * p.val; omega
      | ⟨1, _⟩ => show win3_2.index t (1 : Fin 2) * 128 + 1 * k.val = k.val; omega
    · show V c main_v5 (((cfg3.win 5).blk t).view.emb (ix2 (Spec.band 2 k) q)) = _
      refine congrArg (V c main_v5) (funext fun a => Fin.ext ?_)
      match a with
      | ⟨0, _⟩ => show win3_5.index t (0 : Fin 2) * 512 + 1 * (128 * 2 + k.val) = 128 * 2 + k.val; omega
      | ⟨1, _⟩ => show win3_5.index t (1 : Fin 2) * 128 + 1 * q.val = win3_7.index t (1 : Fin 2) * 128 + 1 * q.val; omega
  · refine Finset.sum_congr rfl fun k _ => congrArg₂ (· * ·) ?_ ?_
    · show V c main_v3 (((cfg3.win 3).blk t).view.emb (ix2 p k)) = _
      refine congrArg (V c main_v3) (funext fun a => Fin.ext ?_)
      match a with
      | ⟨0, _⟩ => show win3_3.index t (0 : Fin 2) * 2000 + 1 * p.val = win3_7.index t (0 : Fin 2) * 2000 + 1 * p.val; omega
      | ⟨1, _⟩ => show win3_3.index t (1 : Fin 2) * 128 + 1 * k.val = k.val; omega
    · show V c main_v5 (((cfg3.win 5).blk t).view.emb (ix2 (Spec.band 3 k) q)) = _
      refine congrArg (V c main_v5) (funext fun a => Fin.ext ?_)
      match a with
      | ⟨0, _⟩ => show win3_5.index t (0 : Fin 2) * 512 + 1 * (128 * 3 + k.val) = 128 * 3 + k.val; omega
      | ⟨1, _⟩ => show win3_5.index t (1 : Fin 2) * 128 + 1 * q.val = win3_7.index t (1 : Fin 2) * 128 + 1 * q.val; omega
  · show V c main_v6 (((cfg3.win 6).blk t).view.emb (ix2 (0 : Fin 1) q)) = _
    refine congrArg (V c main_v6) (funext fun a => Fin.ext ?_)
    match a with
    | ⟨0, _⟩ => show win3_6.index t (0 : Fin 2) * 1 + 1 * 0 = 0; omega
    | ⟨1, _⟩ => show win3_6.index t (1 : Fin 2) * 128 + 1 * q.val = win3_7.index t (1 : Fin 2) * 128 + 1 * q.val; omega

/-- An index of the result array is in point t's block iff each coordinate is in the block's range on its axis. -/
theorem mem_block (t : Fin cfg3.N) (i : S10000x128.Idx) :
    i ∈ ((cfg3.win 7).blk t).view.set ↔ ∀ a : Fin 2, win3_7.index t a * S2000x128.size a ≤ (i a).val ∧ (i a).val < win3_7.index t a * S2000x128.size a + S2000x128.size a := by
  show i ∈ ((View.whole main_v7).slice (win3_7.rect t)).set ↔ _
  rw [View.set_slice_whole, Rect.mem_set_unit]
  exact Iff.rfl

/-- Every row lies in the block of the point numbered by the row divided by 2000. -/
theorem covered (i : S10000x128.Idx) : ∃ t : Fin cfg3.N, (cfg3.win 7).flush t = true ∧ i ∈ ((cfg3.win 7).blk t).view.set := by
  have hi0 : (i 0).val < 10000 := (i 0).isLt
  have hi1 : (i 1).val < 128 := (i 1).isLt
  have hN : grid3.N = 5 := N_3
  let t : Fin cfg3.N := ⟨(i 0).val / 2000, by show (i 0).val / 2000 < grid3.N; rw [hN]; omega⟩
  obtain ⟨a0, a1, b0, b1, c0, c1, d0, d1, w0, w1, v0, v1, r0, r1, o0, o1⟩ := index_facts t
  have o0' : win3_7.index t (0 : Fin 2) = (i 0).val / 2000 := o0
  refine ⟨t, flush3_7 t, ?_⟩
  rw [mem_block]
  intro a
  match a with
  | ⟨0, _⟩ => show win3_7.index t (0 : Fin 2) * 2000 ≤ (i 0).val ∧ (i 0).val < win3_7.index t (0 : Fin 2) * 2000 + 2000; omega
  | ⟨1, _⟩ => show win3_7.index t (1 : Fin 2) * 128 ≤ (i 1).val ∧ (i 1).val < win3_7.index t (1 : Fin 2) * 128 + 128; omega

/-- The result array after the region: `bandsOf` of the arrays the region finds. -/
theorem final (c : Dev nD) : (dat3 (F := Ideal) V c).arrAt 7 cfg3.N
    = bandsOf (V c main_arg0) (V c main_v1_0) (V c main_v2) (V c main_v3) (V c main_v4) (V c main_v5) (V c main_v6) :=
  (dat3 V c).arrAt_eq_of_cover 7 _ (fun t _ => flushed_eq V c t) covered

end Cert.KernelIdeal.LinearBands

end
-- ==== Proof.KernelValue.lean ====
/-
  What the idealized kernel program leaves in its result array.

  Write X, A, W, b for the four argument arrays at launch.  Following the program's segments:
    * the first host stretch rounds X to another float format, which on the extended reals is the identity;
    * region 0 leaves Z₁ = A · X in one array and a copy of A in another (`PropagateFirst`);
    * region 1 reads that copy and Z₁ and leaves Z₂ = A · Z₁ (`PropagateSecond`);
    * region 2 reads the copy and Z₂ and leaves Z₃ = A · Z₂ (`PropagateThird`);
    * the second host stretch transposes W, rounds the transpose (the identity again) and reshapes b to one row;
    * region 3 forms the four band sums and adds the bias (`LinearBands`).
  A region leaves every array that is not one of its outputs as it found it, and a host stretch every buffer it does
  not write.  Reading the transposed weight at (128·j + k, o) is reading W at (o, 128·j + k), and the bias row at
  (0, o) is b at o, so the result array ends as `Spec.powerConv X A W b`.
-/
import proofs.«114706_g12524124635992_retrytranche1_277_3_alg».proof.Proof.PropagateFirst
import proofs.«114706_g12524124635992_retrytranche1_277_3_alg».proof.Proof.PropagateSecond
import proofs.«114706_g12524124635992_retrytranche1_277_3_alg».proof.Proof.PropagateThird
import proofs.«114706_g12524124635992_retrytranche1_277_3_alg».proof.Proof.LinearBands
import Idealize.ShloMosaic.Lib.StableHlo.Run
import Idealize.ShloMosaic.Lib.ValueLayout

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The four argument arrays at launch, on core c. -/
abbrev feat (c : Dev nD) : Spec.Nodes.Idx → EReal := m ((c : Thread nD τ).loc main_arg0)
abbrev adj (c : Dev nD) : Spec.Adj.Idx → EReal := m ((c : Thread nD τ).loc main_arg1)
abbrev wgt (c : Dev nD) : Spec.Weight.Idx → EReal := m ((c : Thread nD τ).loc main_arg2)
abbrev bia (c : Dev nD) : Spec.Bias.Idx → EReal := m ((c : Thread nD τ).loc main_arg3)

/-! ## The host stretches leave what they do not write -/

theorem host0_keeps (c : Dev nD) (b : Ref sig .tc) (hb : b ≠ main_v0) :
    W1 (F := Ideal) m ρ c (Proc.devRef .tc b) = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact StableHlo.devRef_ne_of_ne hb))

theorem host3_keeps (c : Dev nD) (b : Ref sig .tc) (h4 : b ≠ main_v4) (h5 : b ≠ main_v5) (h6 : b ≠ main_v6) :
    W5 (F := Ideal) m ρ c (Proc.devRef .tc b) = W4 m ρ c (Proc.devRef .tc b) :=
  StableHlo.after_of_forall_not_mem (b := Proc.devRef .tc b) _ _ (List.forall_iff_forall_mem.mp (by
    simp only [hostOps3, List.Forall, StableHlo.unary_writes, StableHlo.reshape_writes, Finset.mem_singleton]
    exact ⟨StableHlo.devRef_ne_of_ne h4, StableHlo.devRef_ne_of_ne h5, StableHlo.devRef_ne_of_ne h6⟩))

/-! ## Region 0's entry -/

theorem adj_at1 (c : Dev nD) : V1 (F := Ideal) m ρ c main_arg1 = adj m c := host0_keeps m ρ c main_arg1 (by decide)

theorem feat_at1 (c : Dev nD) : (V1 (F := Ideal) m ρ c main_v0 : Spec.Nodes.Idx → EReal) = feat m c := by
  show StableHlo.after hostOps0 (W0 m ρ c) (Proc.devRef .tc main_v0) = _
  dsimp only [hostOps0]
  after_results
  rfl

/-! ## After region 0 -/

theorem z1_at2 (c : Dev nD) : V2 (F := Ideal) m ρ c main_v1_0 = Spec.step (adj m c) (feat m c) :=
  (W2_arr m ρ c 2).trans ((PropagateFirst.final (V1 m ρ) c).trans (by rw [adj_at1, feat_at1]))

theorem adj_at2 (c : Dev nD) : (V2 (F := Ideal) m ρ c main_v1_1 : Spec.Adj.Idx → EReal) = adj m c :=
  (W2_arr m ρ c 3).trans ((PropagateFirst.final_copy (V1 m ρ) c).trans (by rw [adj_at1]))

/-! ## After region 1 -/

theorem z1_at3 (c : Dev nD) : V3 (F := Ideal) m ρ c main_v1_0 = Spec.step (adj m c) (feat m c) :=
  ((W3_arr m ρ c 1).trans (((dat1 (V2 m ρ) c).arrAt_in 1 rfl _).trans (A_eq1 (V2 m ρ) c 1))).trans (z1_at2 m ρ c)

theorem adj_at3 (c : Dev nD) : (V3 (F := Ideal) m ρ c main_v1_1 : Spec.Adj.Idx → EReal) = adj m c :=
  ((W3_arr m ρ c 0).trans (((dat1 (V2 m ρ) c).arrAt_in 0 rfl _).trans (A_eq1 (V2 m ρ) c 0))).trans (adj_at2 m ρ c)

theorem z2_at3 (c : Dev nD) : V3 (F := Ideal) m ρ c main_v2 = Spec.step (adj m c) (Spec.step (adj m c) (feat m c)) :=
  (W3_arr m ρ c 2).trans ((PropagateSecond.final (V2 m ρ) c).trans (by rw [adj_at2, z1_at2]))

/-! ## After region 2 -/

theorem z1_at4 (c : Dev nD) : V4 (F := Ideal) m ρ c main_v1_0 = Spec.step (adj m c) (feat m c) :=
  (W4_of_ne m ρ c main_v1_0 (by decide)).trans (z1_at3 m ρ c)

theorem z2_at4 (c : Dev nD) : V4 (F := Ideal) m ρ c main_v2 = Spec.step (adj m c) (Spec.step (adj m c) (feat m c)) :=
  ((W4_arr m ρ c 1).trans (((dat2 (V3 m ρ) c).arrAt_in 1 rfl _).trans (A_eq2 (V3 m ρ) c 1))).trans (z2_at3 m ρ c)

theorem z3_at4 (c : Dev nD) :
    V4 (F := Ideal) m ρ c main_v3 = Spec.step (adj m c) (Spec.step (adj m c) (Spec.step (adj m c) (feat m c))) :=
  (W4_arr m ρ c 2).trans ((PropagateThird.final (V3 m ρ) c).trans (by rw [adj_at3, z2_at3]))

/-- An argument no region writes and the first host stretch does not write is, after region 2, as launched. -/
theorem arg_at4 (c : Dev nD) (b : Ref sig .tc) (h0 : ∀ w, Pipeline.arrRef spec0 w ≠ b) (h1 : ∀ w, Pipeline.arrRef spec1 w ≠ b)
    (h2 : ∀ w, Pipeline.arrRef spec2 w ≠ b) (hb : b ≠ main_v0) :
    W4 (F := Ideal) m ρ c (Proc.devRef .tc b) = m ((c : Thread nD τ).loc b) :=
  (W4_of_ne m ρ c b h2).trans ((W3_of_ne m ρ c b h1).trans ((W2_of_ne m ρ c b h0).trans (host0_keeps m ρ c b hb)))

/-! ## Region 3's entry -/

theorem feat_at5 (c : Dev nD) : V5 (F := Ideal) m ρ c main_arg0 = feat m c :=
  (host3_keeps m ρ c main_arg0 (by decide) (by decide) (by decide)).trans
    (arg_at4 m ρ c main_arg0 (by decide) (by decide) (by decide) (by decide))

theorem z1_at5 (c : Dev nD) : V5 (F := Ideal) m ρ c main_v1_0 = Spec.step (adj m c) (feat m c) :=
  (host3_keeps m ρ c main_v1_0 (by decide) (by decide) (by decide)).trans (z1_at4 m ρ c)

theorem z2_at5 (c : Dev nD) : V5 (F := Ideal) m ρ c main_v2 = Spec.step (adj m c) (Spec.step (adj m c) (feat m c)) :=
  (host3_keeps m ρ c main_v2 (by decide) (by decide) (by decide)).trans (z2_at4 m ρ c)

theorem z3_at5 (c : Dev nD) :
    V5 (F := Ideal) m ρ c main_v3 = Spec.step (adj m c) (Spec.step (adj m c) (Spec.step (adj m c) (feat m c))) :=
  (host3_keeps m ρ c main_v3 (by decide) (by decide) (by decide)).trans (z3_at4 m ρ c)

theorem wt_at5 (c : Dev nD) :
    (V5 (F := Ideal) m ρ c main_v4 : S512x128.Idx → EReal) = transpose S512x128 [1, 0] (wgt m c) transposes_S128x512_S512x128_1_0 := by
  show StableHlo.after hostOps3 (W4 m ρ c) (Proc.devRef .tc main_v4) = _
  dsimp only [hostOps3]
  after_results
  rw [arg_at4 m ρ c main_arg2 (by decide) (by decide) (by decide) (by decide)]

theorem wtb_at5 (c : Dev nD) :
    (V5 (F := Ideal) m ρ c main_v5 : S512x128.Idx → EReal) = transpose S512x128 [1, 0] (wgt m c) transposes_S128x512_S512x128_1_0 := by
  show StableHlo.after hostOps3 (W4 m ρ c) (Proc.devRef .tc main_v5) = _
  dsimp only [hostOps3]
  after_results
  rw [arg_at4 m ρ c main_arg2 (by decide) (by decide) (by decide) (by decide)]
  rfl

theorem bias_at5 (c : Dev nD) :
    (V5 (F := Ideal) m ρ c main_v6 : S1x128.Idx → EReal) = shapeCast S1x128 (bia m c) shapeCasts_S128_S1x128 := by
  show StableHlo.after hostOps3 (W4 m ρ c) (Proc.devRef .tc main_v6) = _
  dsimp only [hostOps3]
  after_results
  rw [arg_at4 m ρ c main_arg3 (by decide) (by decide) (by decide) (by decide)]
  rfl

/-! ## The result -/

/-- The band sums against the transposed weight and the bias row are the band sums against W and b. -/
theorem bands_of_transposed (X Z1 Z2 Z3 : Spec.Nodes.Idx → EReal) (W : Spec.Weight.Idx → EReal) (b : Spec.Bias.Idx → EReal) :
    LinearBands.bandsOf X Z1 Z2 Z3 (transpose S512x128 [1, 0] W transposes_S128x512_S512x128_1_0)
      (transpose S512x128 [1, 0] W transposes_S128x512_S512x128_1_0) (shapeCast S1x128 b shapeCasts_S128_S1x128)
      = Spec.linBands X Z1 Z2 Z3 W b := by
  funext i
  obtain ⟨r, o, rfl⟩ : ∃ (r : Fin 10000) (o : Fin 128), i = ix2 r o := ⟨i 0, i 1, eq_ix2 i⟩
  unfold LinearBands.bandsOf Spec.linBands
  have ht : ∀ k : Fin 512, transpose S512x128 [1, 0] W transposes_S128x512_S512x128_1_0 (ix2 k o) = W (ix2 o k) :=
    fun k => transpose_ix2_apply W transposes_S128x512_S512x128_1_0 k o
  have hb : shapeCast S1x128 b shapeCasts_S128_S1x128 (ix2 (0 : Fin 1) o) = b (ix1 o) :=
    shapeCast_a_1a_apply b shapeCasts_S128_S1x128 0 o
  refine congrArg₂ (· + ·) (congrArg₂ (· + ·) (congrArg₂ (· + ·) (congrArg₂ (· + ·) ?_ ?_) ?_) ?_) hb <;>
    exact Finset.sum_congr rfl fun k _ => congrArg (_ * ·) (ht _)

/-- The result array at the last boundary is `Spec.powerConv` of the arguments at launch. -/
theorem result_eq (c : Dev nD) :
    W6 (F := Ideal) m ρ c (Proc.devRef .tc main_v7) = Spec.powerConv (feat m c) (adj m c) (wgt m c) (bia m c) := by
  refine (W6_arr m ρ c 7).trans ((LinearBands.final (V5 m ρ) c).trans ?_)
  rw [feat_at5, z1_at5, z2_at5, z3_at5, wt_at5, wtb_at5, bias_at5]
  exact bands_of_transposed _ _ _ _ _ _

end Cert.KernelIdeal.Whole

end
-- ==== Proof.ReferenceValue.lean ====
/-
  The reference's result is the band-by-band function.

  The reference propagates three times on the host (each `dot_general` with one contracted axis is, at the
  extended reals, the sum over k of the products), lays X, Z₁, Z₂, Z₃ side by side into a [10000, 512] array,
  multiplies by the transposed weight (one sum over all 512 columns) and adds the bias broadcast over the rows.
  Column 128·b + k of the concatenation is column k of piece b, so by `Spec.linWhole_eq_linBands` the result is
  `Spec.powerConv` of the arguments.
-/
import proofs.«114706_g12524124635992_retrytranche1_277_3_alg».proof.Proof.Gen.ReferenceIdeal.Read
import proofs.«114706_g12524124635992_retrytranche1_277_3_alg».proof.Proof.PowerConvSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- A sum of products read at row `i 0` of the adjacency and column `i 1` of the features is one propagation step. -/
theorem step_read (A : S10000x10000.Idx → EReal) (Z : S10000x128.Idx → EReal) (i : S10000x128.Idx)
    (L : Fin 10000 → S10000x10000.Idx) (R : Fin 10000 → S10000x128.Idx)
    (hL : ∀ k, L k = ix2 (i 0) k) (hR : ∀ k, R k = ix2 k (i 1)) :
    ∑ k : Fin 10000, A (L k) * Z (R k) = Spec.step A Z i := by
  unfold Spec.step
  exact Finset.sum_congr rfl fun k _ => congrArg₂ (· * ·) (congrArg A (hL k)) (congrArg Z (hR k))

theorem first_step (x0 : S10000x128.Idx → EReal) (x1 : S10000x10000.Idx → EReal) :
    val_main_v0 (F := Ideal) x0 x1 = Spec.step x1 x0 := by
  funext i
  rw [val_main_v0_apply]
  exact step_read x1 x0 i _ _
    (fun k => funext fun a => Fin.ext (by match a with | ⟨0, _⟩ => rfl | ⟨1, _⟩ => rfl))
    (fun k => funext fun a => Fin.ext (by match a with | ⟨0, _⟩ => rfl | ⟨1, _⟩ => rfl))

theorem second_step (x0 : S10000x128.Idx → EReal) (x1 : S10000x10000.Idx → EReal) :
    val_main_v1 (F := Ideal) x0 x1 = Spec.step x1 (Spec.step x1 x0) := by
  funext i
  rw [val_main_v1_apply, first_step]
  exact step_read x1 _ i _ _
    (fun k => funext fun a => Fin.ext (by match a with | ⟨0, _⟩ => rfl | ⟨1, _⟩ => rfl))
    (fun k => funext fun a => Fin.ext (by match a with | ⟨0, _⟩ => rfl | ⟨1, _⟩ => rfl))

theorem third_step (x0 : S10000x128.Idx → EReal) (x1 : S10000x10000.Idx → EReal) :
    val_main_v2 (F := Ideal) x0 x1 = Spec.step x1 (Spec.step x1 (Spec.step x1 x0)) := by
  funext i
  rw [val_main_v2_apply, second_step]
  exact step_read x1 _ i _ _
    (fun k => funext fun a => Fin.ext (by match a with | ⟨0, _⟩ => rfl | ⟨1, _⟩ => rfl))
    (fun k => funext fun a => Fin.ext (by match a with | ⟨0, _⟩ => rfl | ⟨1, _⟩ => rfl))

/-- Four [10000, 128] arrays side by side, read at column k of band b, give piece b at column k. -/
theorem cat_band (y : Fin 4 → S10000x128.Idx → EReal)
    (h : Shape.Concatenates (([⟨S10000x128, y 0⟩, ⟨S10000x128, y 1⟩, ⟨S10000x128, y 2⟩, ⟨S10000x128, y 3⟩] : List ((s : Shape) × (s.Idx → EReal))).map (·.1)) S10000x512 1)
    (b : Fin 4) (r : Fin 10000) (k : Fin 128) :
    concatenate S10000x512 1 [⟨S10000x128, y 0⟩, ⟨S10000x128, y 1⟩, ⟨S10000x128, y 2⟩, ⟨S10000x128, y 3⟩] h (ix2 r (Spec.band b k)) = y b (ix2 r k) := by
  have hside : ∀ a : Fin S10000x128.rank, a.cast (rfl : S10000x128.rank = S10000x512.rank) ≠ 1 →
      ((ix2 r k : S10000x128.Idx) a).val = ((ix2 r (Spec.band b k) : S10000x512.Idx) (a.cast rfl)).val := fun a ha => by
    match a with
    | ⟨0, _⟩ => rfl
    | ⟨1, _⟩ => exact absurd rfl ha
  match b with
  | ⟨0, _⟩ => exact concatenate_apply_piece 1 _ h _ 0 (by simp) S10000x128 (y 0) rfl rfl 0 rfl (ix2 r k) hside (by show 0 + k.val = 128 * 0 + k.val; omega)
  | ⟨1, _⟩ => exact concatenate_apply_piece 1 _ h _ 1 (by simp) S10000x128 (y 1) rfl rfl 128 rfl (ix2 r k) hside (by show 128 + k.val = 128 * 1 + k.val; omega)
  | ⟨2, _⟩ => exact concatenate_apply_piece 1 _ h _ 2 (by simp) S10000x128 (y 2) rfl rfl 256 rfl (ix2 r k) hside (by show 256 + k.val = 128 * 2 + k.val; omega)
  | ⟨3, _⟩ => exact concatenate_apply_piece 1 _ h _ 3 (by simp) S10000x128 (y 3) rfl rfl 384 rfl (ix2 r k) hside (by show 384 + k.val = 128 * 3 + k.val; omega)

/-- The reference's last stage is the whole-row sum against the weight plus the bias. -/
theorem whole_row (x0 : S10000x128.Idx → EReal) (x1 : S10000x10000.Idx → EReal) (x2 : S128x512.Idx → EReal) (x3 : S128.Idx → EReal) :
    val_main_v8 (F := Ideal) x0 x1 x2 x3 = Spec.linWhole (val_main_v3 (F := Ideal) x0 x1) x2 x3 := by
  funext i
  rw [val_main_v8_apply, val_main_v5_apply, val_main_v7_apply, val_main_v6_apply]
  show (∑ k : Fin 512, _) + _ = (∑ k : Fin 512, val_main_v3 (F := Ideal) x0 x1 (ix2 (i 0) k) * x2 (ix2 (i 1) k)) + x3 (ix1 (i 1))
  refine congrArg₂ (· + ·) (Finset.sum_congr rfl fun k _ => congrArg₂ (· * ·) (congrArg _ ?_) ?_) (congrArg x3 ?_)
  · exact funext fun a => Fin.ext (by match a with | ⟨0, _⟩ => rfl | ⟨1, _⟩ => rfl)
  · rw [val_main_v4_apply]
    exact congrArg x2 (funext fun a => Fin.ext (by match a with | ⟨0, _⟩ => rfl | ⟨1, _⟩ => rfl))
  · exact funext fun a => Fin.ext (by match a with | ⟨0, _⟩ => rfl)

/-- The reference's result is `Spec.powerConv` of its arguments. -/
theorem result_eq (x0 : S10000x128.Idx → EReal) (x1 : S10000x10000.Idx → EReal) (x2 : S128x512.Idx → EReal) (x3 : S128.Idx → EReal) :
    val_main_v8 (F := Ideal) x0 x1 x2 x3 = Spec.powerConv x0 x1 x2 x3 := by
  rw [whole_row]
  unfold Spec.powerConv
  have hcat := cat_band (fun b : Fin 4 => match b with
    | ⟨0, _⟩ => x0
    | ⟨1, _⟩ => val_main_v0 (F := Ideal) x0 x1
    | ⟨2, _⟩ => val_main_v1 (F := Ideal) x0 x1
    | ⟨3, _⟩ => val_main_v2 (F := Ideal) x0 x1) concatenates_S10000x128_S10000x128_S10000x128_S10000x128_S10000x512_d1
  refine Spec.linWhole_eq_linBands _ x0 _ _ _ x2 x3 (fun r k => hcat 0 r k) (fun r k => ?_) (fun r k => ?_) (fun r k => ?_)
  · exact (hcat 1 r k).trans (congrFun (first_step x0 x1) _)
  · exact (hcat 2 r k).trans (congrFun (second_step x0 x1) _)
  · exact (hcat 3 r k).trans (congrFun (third_step x0 x1) _)

end Cert.ReferenceIdeal.RefValue

end
-- ==== Proof.lean ====
/-
  Three propagation steps of a dense adjacency and one linear layer over the concatenated features: the kernel
  against its plain reference, over the extended reals.

  With X : [10000, 128], A : [10000, 10000], W : [128, 512], b : [128], put Z₀ = X, Z_{k+1} = A · Z_k.  Both programs
  compute, at (r, o),   ∑_{c < 512} [Z₀ | Z₁ | Z₂ | Z₃](r, c) · W(o, c) + b(o).
  The reference concatenates the four arrays and sums over all 512 columns at once.  The kernel program never forms
  the concatenation: three regions compute Z₁, Z₂, Z₃ block of rows by block of rows (the first also keeps a copy of A in
  another float format, which later regions read), and a fourth sums each band of 128 columns against the matching
  rows of the transposed weight, adding the four band sums and the bias.  On the extended reals a change of float
  format is the identity, a matrix product into a zero accumulator is the plain sum of products, and addition is
  commutative and associative, so a sum over 512 columns is the sum of its four bands: the two results are equal
  index by index, whatever the inputs (the finiteness of the inputs is not used).

  Modules: `PowerConvSpec` (the function and the band law), `PropagateFirst` / `PropagateSecond` / `PropagateThird` /
  `LinearBands` (what each region leaves in its output array, as a function of the arrays it finds), `KernelRunAll`
  (the program's run with every lasting buffer named), `KernelValue` (the regions chained: the result array),
  `ReferenceValue` (the reference's result).  The ideal pass rewrote nothing, so `preserves` is `True`.
-/
import proofs.«114706_g12524124635992_retrytranche1_277_3_alg».proof.Defs
import proofs.«114706_g12524124635992_retrytranche1_277_3_alg».proof.Proof.Gen.Kernel
import proofs.«114706_g12524124635992_retrytranche1_277_3_alg».proof.Proof.Gen.Kernel.Skeleton
import proofs.«114706_g12524124635992_retrytranche1_277_3_alg».proof.Proof.Gen.Kernel.Launch
import proofs.«114706_g12524124635992_retrytranche1_277_3_alg».proof.Proof.Gen.Kernel.Points
import proofs.«114706_g12524124635992_retrytranche1_277_3_alg».proof.Proof.Gen.Kernel.Frame
import proofs.«114706_g12524124635992_retrytranche1_277_3_alg».proof.Proof.Gen.KernelIdeal
import proofs.«114706_g12524124635992_retrytranche1_277_3_alg».proof.Proof.Gen.KernelIdeal.Skeleton
import proofs.«114706_g12524124635992_retrytranche1_277_3_alg».proof.Proof.Gen.KernelIdeal.Launch
import proofs.«114706_g12524124635992_retrytranche1_277_3_alg».proof.Proof.Gen.KernelIdeal.Points
import proofs.«114706_g12524124635992_retrytranche1_277_3_alg».proof.Proof.Gen.KernelIdeal.Frame
import proofs.«114706_g12524124635992_retrytranche1_277_3_alg».proof.Proof.Gen.ReferenceIdeal
import proofs.«114706_g12524124635992_retrytranche1_277_3_alg».proof.Proof.Gen.Pre_finite_inputs
import proofs.«114706_g12524124635992_retrytranche1_277_3_alg».proof.Proof.Gen.ReferenceIdeal.Run
import proofs.«114706_g12524124635992_retrytranche1_277_3_alg».proof.Proof.Gen.ReferenceIdeal.Read
import proofs.«114706_g12524124635992_retrytranche1_277_3_alg».proof.Proof.KernelRunAll
import proofs.«114706_g12524124635992_retrytranche1_277_3_alg».proof.Proof.KernelValue
import proofs.«114706_g12524124635992_retrytranche1_277_3_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

/-- From memories agreeing on the arguments both idealized programs end with `Spec.powerConv` of the arguments in
    their result arrays, and the arguments unchanged. -/
theorem algebraic : Cert.algebraic_KernelIdeal_ReferenceIdeal := by
  intro m ρ m' ρ' _ hagree
  refine ⟨fun c => Spec.powerConv (Cert.KernelIdeal.Whole.feat m c) (Cert.KernelIdeal.Whole.adj m c)
    (Cert.KernelIdeal.Whole.wgt m c) (Cert.KernelIdeal.Whole.bia m c), ?_, ?_⟩
  · exact (θ_run Cert.KernelIdeal.defs _ _).mono (fun r h c =>
      ⟨(h c _ (Cert.KernelIdeal.Gen.mem_uc Cert.KernelIdeal.main_v7 (by decide))).trans (Cert.KernelIdeal.Whole.result_eq m ρ c),
       (h c _ (Cert.KernelIdeal.Gen.mem_uc Cert.KernelIdeal.main_arg0 (by decide))).trans (Cert.KernelIdeal.Gen.W6_main_arg0 m ρ c),
       (h c _ (Cert.KernelIdeal.Gen.mem_uc Cert.KernelIdeal.main_arg1 (by decide))).trans (Cert.KernelIdeal.Gen.W6_main_arg1 m ρ c),
       (h c _ (Cert.KernelIdeal.Gen.mem_uc Cert.KernelIdeal.main_arg2 (by decide))).trans (Cert.KernelIdeal.Gen.W6_main_arg2 m ρ c),
       (h c _ (Cert.KernelIdeal.Gen.mem_uc Cert.KernelIdeal.main_arg3 (by decide))).trans (Cert.KernelIdeal.Gen.W6_main_arg3 m ρ c)⟩)
      (Cert.KernelIdeal.Whole.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.ReferenceIdeal.RefValue.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
